-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S100000x16 : Shape := ⟨2, ![100000, 16]⟩
abbrev S5000x16 : Shape := ⟨2, ![5000, 16]⟩
abbrev S1x128 : Shape := ⟨2, ![1, 128]⟩
abbrev S1700000x16 : Shape := ⟨2, ![1700000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 84
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x16, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x16, .f32⟩
  | .hbm, ⟨76, _⟩ => ⟨S1700000x1, .f32⟩
  | .hbm, ⟨77, _⟩ => ⟨S1700000x16, .f32⟩
  | .hbm, ⟨78, _⟩ => ⟨S1700000x16, .f32⟩
  | .hbm, ⟨79, _⟩ => ⟨S_, .f32⟩
  | .hbm, ⟨80, _⟩ => ⟨S100000x16, .f32⟩
  | .hbm, ⟨81, _⟩ => ⟨S1700000x1, .i32⟩
  | .hbm, ⟨82, _⟩ => ⟨S100000x16, .f32⟩
  | .hbm, ⟨83, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16, .f32⟩
  | .local _ .vmem, ⟨14, _⟩ => ⟨S5000x16, .f32⟩
  | .local _ .vmem, ⟨15, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S5000x16 : S1x16.Broadcasts S5000x16
  shapeCasts_S5000x16_S5000x16 : S5000x16.ShapeCasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16.size a ≤ S16.size a
  hwx2_1 : ∀ i : grid2.Coords, EltTy.bits .f32 = 32 ∨ (Rect.block (s := S16) S16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 143
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x16, .f32⟩
  | 5 => ⟨S16, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x16, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x16, .f32⟩
  | 118 => ⟨S1700000x1, .f32⟩
  | 119 => ⟨S1700000x16, .f32⟩
  | 120 => ⟨S1700000x16, .f32⟩
  | 121 => ⟨S_, .f32⟩
  | 122 => ⟨S100000x16, .f32⟩
  | 123 => ⟨S1700000x1, .i32⟩
  | 124 => ⟨S100000x16, .f32⟩
  | 125 => ⟨S1x16, .f32⟩
  | 126 => ⟨S100000x16, .f32⟩
  | 127 => ⟨S100000x16, .f32⟩
  | _ => ⟨S100000x256, .f32⟩

abbrev hbmTy0_1 (i : Nat) : BufTy := match i % 128 with
  | 0 => ⟨S_, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x16, .f32⟩
  | 7 => ⟨S100000x16, .f32⟩
  | 8 => ⟨S100000x16, .f32⟩
  | 9 => ⟨S_, .f32⟩
  | 10 => ⟨S100000, .f32⟩
  | 11 => ⟨S100000x1, .f32⟩
  | 12 => ⟨S100000x1, .f32⟩
  | 13 => ⟨S100000x16, .f32⟩
  | 14 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Spec.lean ====
/-
  The value both programs compute, as ONE function of the six argument arrays, written over whole arrays.

  The graph part. `src e` and `dst e` are the edge list's two rows, each followed by the self loops 0 … 99999;
  `wrap v` maps a negative index `k` to `k + 100000` (numpy's indexing from the end). For destinations `d` and
  sources `s`: `deg d` counts, per node, the edges that end there; `dinv d` is `deg ^ (-1/2)` where the degree is
  positive and 0 elsewhere; `norm s d` is, per edge, `dinv (source) · dinv (destination)`. `agg128 h s d n` and
  `agg16 h s d n` are one round of message passing on feature arrays of width 128 and 16: row `s` of `h` scaled by
  the edge's weight `n`, added into row `d` of a zero array.

  The dense part. `dense1 x W` is the matrix product; `dense2 a b W` adds the bias `b` to every row of `a`, clamps at
  zero and multiplies by `W`; `logsm a b` adds the bias and takes the row-wise log-softmax: with `X = a + b`,
  `X - max_row X - log (Σ_row exp (X - max_row X))`.

  `out` composes them: two graph-convolution layers and the log-softmax.
-/
import proofs.«135182_j56891136803140_1_alg».proof.Proof.Gen.ReferenceIdeal

noncomputable section

namespace Cert.ReferenceIdeal.Spec

open Cert.ReferenceIdeal Cert.ReferenceIdeal.Facts₀ Idealize.ShloMosaic Idealize.SL.Sem

variable {F : FTy → Type} [FloatOps F]

/-- An array of the given shape and element type. -/
abbrev Arr (S : Shape) (e : EltTy) : Type := (⟨S, e⟩ : BufTy).Contents (Elt F)

/-- The edges' sources: row 0 of the edge list, then one self loop per node. -/
def src (e : Arr (F := F) S2x1600000 .i32) : Arr (F := F) S1700000 .i32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge list, then one self loop per node. -/
def dst (e : Arr (F := F) S2x1600000 .i32) : Arr (F := F) S1700000 .i32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index counts from the end. -/
def wrap (v : Arr (F := F) S1700000 .i32) : Arr (F := F) S1700000 .i32 :=
  select (cmpi .slt v (broadcastInDim S1700000 ![] bcast_S_S1700000 (constantI S_ 32 0#32))) (addi v (broadcastInDim S1700000 ![] bcast_S_S1700000 (constantI S_ 32 100000#32))) v

/-- The number of edges ending at each node, self loop included, from the destinations `d`. -/
def deg (d : Arr (F := F) S1700000 .i32) : Arr (F := F) S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `deg ^ (-1/2)` at a node of positive degree, zero elsewhere. -/
def dinv (d : Arr (F := F) S1700000 .i32) : Arr (F := F) S100000 .f32 :=
  select (cmpf (F := F) .ogt (deg d) (broadcastInDim S100000 ![] bcast_S_S100000 (constant S_ .f32 0x00000000#32))) (Host.rsqrt (maximumf (deg d) (broadcastInDim S100000 ![] bcast_S_S100000 (constant S_ .f32 0x3F800000#32)))) (broadcastInDim S100000 ![] bcast_S_S100000 (id (constant S_ .f32 0x00000000#32)))

/-- The symmetric normalisation of each edge, from the sources `s` and the destinations `d`. -/
def norm (s d : Arr (F := F) S1700000 .i32) : Arr (F := F) S1700000 .f32 :=
  mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- One round of message passing on 128 features: row `s` of `h`, scaled by the edge's weight `n`, added into row `d`. -/
def agg128 (h : Arr (F := F) S100000x128 .f32) (s d : Arr (F := F) S1700000 .i32) (n : Arr (F := F) S1700000 .f32) : Arr (F := F) S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))

/-- One round of message passing on 16 features. -/
def agg16 (h : Arr (F := F) S100000x16 .f32) (s d : Arr (F := F) S1700000 .i32) (n : Arr (F := F) S1700000 .f32) : Arr (F := F) S100000x16 .f32 :=
  Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 d) (mulf (Host.gather gather_S100000x16_S1700000x1_S1700000x16_1_0_n_n_0_1_116 h (broadcastInDim S1700000x1 ![0] bcast_S1700000_S1700000x1_0 (wrap s))) (broadcastInDim S1700000x16 ![0, 1] bcast_S1700000x1_S1700000x16_0_1 (broadcastInDim S1700000x1 ![0] bcast_S1700000_S1700000x1_0 n)))

/-- The first layer's matrix product. -/
def dense1 (x : Arr (F := F) S100000x256 .f32) (W : Arr (F := F) S256x128 .f32) : Arr (F := F) S100000x128 .f32 :=
  Host.dotGeneral dot_S100000x256_S256x128_S100000x128_1_0_0_1_n_n none x W

/-- Bias, clamp at zero, and the second layer's matrix product. -/
def dense2 (a : Arr (F := F) S100000x128 .f32) (b : Arr (F := F) S128 .f32) (W : Arr (F := F) S128x16 .f32) : Arr (F := F) S100000x16 .f32 :=
  Host.dotGeneral dot_S100000x128_S128x16_S100000x16_1_0_0_1_n_n none (maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))) W

/-- The bias added to every row. -/
def biased (a : Arr (F := F) S100000x16 .f32) (b : Arr (F := F) S16 .f32) : Arr (F := F) S100000x16 .f32 :=
  addf a (broadcastInDim S100000x16 ![0, 1] bcast_S1x16_S100000x16_0_1 (broadcastInDim S1x16 ![1] bcast_S16_S1x16_1 b))

/-- Every row minus its maximum. -/
def shifted (X : Arr (F := F) S100000x16 .f32) : Arr (F := F) S100000x16 .f32 :=
  subf X (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf X (constant S_ .f32 0xFF800000#32) reducesTo_S100000x16_S100000_d1 h_S_))))

/-- The logarithm of each row's sum of exponentials, repeated along the row. -/
def lse (Y : Arr (F := F) S100000x16 .f32) : Arr (F := F) S100000x16 .f32 :=
  broadcastInDim S100000x16 ![0, 1] bcast_S100000x1_S100000x16_0_1 (Host.log (broadcastInDim S100000x1 ![0] bcast_S100000_S100000x1_0 (Host.reduceAdd (Host.exp Y) (constant S_ .f32 0x00000000#32) reducesTo_S100000x16_S100000_d1 h_S_)))

/-- Bias and row-wise log-softmax. -/
def logsm (a : Arr (F := F) S100000x16 .f32) (b : Arr (F := F) S16 .f32) : Arr (F := F) S100000x16 .f32 :=
  subf (shifted (biased a b)) (lse (shifted (biased a b)))

/-- The network: two graph-convolution layers and the log-softmax. -/
def out (x : Arr (F := F) S100000x256 .f32) (e : Arr (F := F) S2x1600000 .i32) (W1 : Arr (F := F) S256x128 .f32) (b1 : Arr (F := F) S128 .f32)
    (W2 : Arr (F := F) S128x16 .f32) (b2 : Arr (F := F) S16 .f32) : Arr (F := F) S100000x16 .f32 :=
  logsm (agg16 (dense2 (agg128 (dense1 x W1) (src e) (dst e) (norm (src e) (dst e))) b1 W2) (src e) (dst e) (norm (src e) (dst e))) b2

end Cert.ReferenceIdeal.Spec

end
-- ==== Proof.KRun.lean ====
/-
  The idealized kernel's run with its result named.

  @main is eight segments: three stretches of host operations, the first matrix-product region, a stretch (gather,
  scale, scatter-add), the second region, a stretch, the log-softmax region. The contents of every buffer at each
  boundary are a fold through the segments (`Gen.W0` … `Gen.W8`: a host stretch applies its operations, a region
  replaces its output array by what its write-backs leave). Every weakly fair execution terminates, and in the final
  state every unscoped buffer holds the last boundary's contents `Gen.W8`: in particular the result buffer, and the six
  argument arrays, which no segment writes.
-/
import proofs.«135182_j56891136803140_1_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the argument arrays end as launched. -/
theorem run_out : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.KHost.lean ====
/-
  The idealized kernel's host stretches, each read as a function of the buffer contents `W` it starts from.

  Before the first region: the sources and destinations of the edges (the edge list's rows followed by the self loops)
  and the per-edge normalisation `dinv (source) · dinv (destination)`. Between the regions: one round of message passing —
  gather the rows at the sources, scale by the normalisation, add into the rows at the destinations — on 128 and on 16
  features. No stretch writes an argument array, and the later stretches leave the sources, the destinations and the
  normalisation in place.
-/
import proofs.«135182_j56891136803140_1_alg».proof.Proof.Spec
import proofs.«135182_j56891136803140_1_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## Before the first region -/

/-- The sources. -/
theorem pre_v3 (W : Valuation τ sig (Elt F)) :
    after (hostOps0_2 (F := F)) (after (hostOps0_1 (F := F)) (after (hostOps0 (F := F)) W)) (Proc.devRef .tc main_v3) = Cert.ReferenceIdeal.Spec.src (F := F) (W (Proc.devRef .tc main_arg1)) := by
  after_results
  rfl

/-- The destinations. -/
theorem pre_v6 (W : Valuation τ sig (Elt F)) :
    after (hostOps0_2 (F := F)) (after (hostOps0_1 (F := F)) (after (hostOps0 (F := F)) W)) (Proc.devRef .tc main_v6) = Cert.ReferenceIdeal.Spec.dst (F := F) (W (Proc.devRef .tc main_arg1)) := by
  after_results
  rfl

set_option maxHeartbeats 4000000 in
/-- The normalisation of each edge. -/
theorem pre_v31 (W : Valuation τ sig (Elt F)) :
    after (hostOps0_2 (F := F)) (after (hostOps0_1 (F := F)) (after (hostOps0 (F := F)) W)) (Proc.devRef .tc main_v31)
      = Cert.ReferenceIdeal.Spec.norm (F := F) (Cert.ReferenceIdeal.Spec.src (W (Proc.devRef .tc main_arg1))) (Cert.ReferenceIdeal.Spec.dst (W (Proc.devRef .tc main_arg1))) := by
  after_results_simp
  -- what is left sits inside the concatenations' operand lists: the two rows of the edge list read back through the first operations
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

theorem pre_arg0 (W : Valuation τ sig (Elt F)) :
    after (hostOps0_2 (F := F)) (after (hostOps0_1 (F := F)) (after (hostOps0 (F := F)) W)) (Proc.devRef .tc main_arg0) = W (Proc.devRef .tc main_arg0) := by
  after_results
theorem pre_arg2 (W : Valuation τ sig (Elt F)) :
    after (hostOps0_2 (F := F)) (after (hostOps0_1 (F := F)) (after (hostOps0 (F := F)) W)) (Proc.devRef .tc main_arg2) = W (Proc.devRef .tc main_arg2) := by
  after_results
theorem pre_arg3 (W : Valuation τ sig (Elt F)) :
    after (hostOps0_2 (F := F)) (after (hostOps0_1 (F := F)) (after (hostOps0 (F := F)) W)) (Proc.devRef .tc main_arg3) = W (Proc.devRef .tc main_arg3) := by
  after_results
theorem pre_arg4 (W : Valuation τ sig (Elt F)) :
    after (hostOps0_2 (F := F)) (after (hostOps0_1 (F := F)) (after (hostOps0 (F := F)) W)) (Proc.devRef .tc main_arg4) = W (Proc.devRef .tc main_arg4) := by
  after_results
theorem pre_arg5 (W : Valuation τ sig (Elt F)) :
    after (hostOps0_2 (F := F)) (after (hostOps0_1 (F := F)) (after (hostOps0 (F := F)) W)) (Proc.devRef .tc main_arg5) = W (Proc.devRef .tc main_arg5) := by
  after_results

/-! ## Between the first and the second region -/

/-- Message passing on the first layer's 128 features. -/
theorem mid_v45 (W : Valuation τ sig (Elt F)) :
    after (hostOps1 (F := F)) W (Proc.devRef .tc main_v45)
      = Cert.ReferenceIdeal.Spec.agg128 (F := F) (W (Proc.devRef .tc main_v32)) (W (Proc.devRef .tc main_v3)) (W (Proc.devRef .tc main_v6)) (W (Proc.devRef .tc main_v31)) := by
  after_results_simp
  rfl

theorem mid_v3 (W : Valuation τ sig (Elt F)) :
    after (hostOps1 (F := F)) W (Proc.devRef .tc main_v3) = W (Proc.devRef .tc main_v3) := by
  after_results
theorem mid_v6 (W : Valuation τ sig (Elt F)) :
    after (hostOps1 (F := F)) W (Proc.devRef .tc main_v6) = W (Proc.devRef .tc main_v6) := by
  after_results
theorem mid_v31 (W : Valuation τ sig (Elt F)) :
    after (hostOps1 (F := F)) W (Proc.devRef .tc main_v31) = W (Proc.devRef .tc main_v31) := by
  after_results
theorem mid_arg3 (W : Valuation τ sig (Elt F)) :
    after (hostOps1 (F := F)) W (Proc.devRef .tc main_arg3) = W (Proc.devRef .tc main_arg3) := by
  after_results
theorem mid_arg4 (W : Valuation τ sig (Elt F)) :
    after (hostOps1 (F := F)) W (Proc.devRef .tc main_arg4) = W (Proc.devRef .tc main_arg4) := by
  after_results
theorem mid_arg5 (W : Valuation τ sig (Elt F)) :
    after (hostOps1 (F := F)) W (Proc.devRef .tc main_arg5) = W (Proc.devRef .tc main_arg5) := by
  after_results

/-! ## Between the second and the third region -/

/-- Message passing on the second layer's 16 features. -/
theorem last_v59 (W : Valuation τ sig (Elt F)) :
    after (hostOps2 (F := F)) W (Proc.devRef .tc main_v59)
      = Cert.ReferenceIdeal.Spec.agg16 (F := F) (W (Proc.devRef .tc main_v46)) (W (Proc.devRef .tc main_v3)) (W (Proc.devRef .tc main_v6)) (W (Proc.devRef .tc main_v31)) := by
  after_results_simp
  rfl

theorem last_arg5 (W : Valuation τ sig (Elt F)) :
    after (hostOps2 (F := F)) W (Proc.devRef .tc main_arg5) = W (Proc.devRef .tc main_arg5) := by
  after_results

end Cert.KernelIdeal.KHost

end
-- ==== Proof.KValue.lean ====
/-
  The idealized kernel's result, read off its run: the last boundary's contents of the result buffer are the
  specification's function of the six argument arrays as launched.

  Walking the boundaries. Before the first region the host operations leave the edges' sources, destinations and
  normalisation. The first region leaves the matrix product `x · W1` (its closed form, `hreg0`); the next stretch passes
  messages on it; the second region leaves `relu (· + b1) · W2` of that (`hreg1`); the next stretch passes messages again;
  the third region leaves the biased row-wise log-softmax (`hreg2`). Between its writer and its reader every buffer is
  left alone: a region replaces only its own output array, and no stretch writes a buffer it only reads.
-/
import proofs.«135182_j56891136803140_1_alg».proof.Proof.Spec
import proofs.«135182_j56891136803140_1_alg».proof.Proof.KHost
import proofs.«135182_j56891136803140_1_alg».proof.Proof.Gen.KernelIdeal.Frame
import Idealize.ShloMosaic.PureOps.Ideal

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem w3_v3 : W3 m ρ c (Proc.devRef .tc main_v3) = (Cert.ReferenceIdeal.Spec.src (F := Ideal) (m ((c : Thread nD τ).loc main_arg1))) := KHost.pre_v3 (W0 m ρ c)
theorem w3_v6 : W3 m ρ c (Proc.devRef .tc main_v6) = (Cert.ReferenceIdeal.Spec.dst (F := Ideal) (m ((c : Thread nD τ).loc main_arg1))) := KHost.pre_v6 (W0 m ρ c)
theorem w3_v31 : W3 m ρ c (Proc.devRef .tc main_v31) = (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1)))) := KHost.pre_v31 (W0 m ρ c)
theorem w3_arg0 : W3 m ρ c (Proc.devRef .tc main_arg0) = (m ((c : Thread nD τ).loc main_arg0)) := KHost.pre_arg0 (W0 m ρ c)
theorem w3_arg2 : W3 m ρ c (Proc.devRef .tc main_arg2) = (m ((c : Thread nD τ).loc main_arg2)) := KHost.pre_arg2 (W0 m ρ c)
theorem w3_arg3 : W3 m ρ c (Proc.devRef .tc main_arg3) = (m ((c : Thread nD τ).loc main_arg3)) := KHost.pre_arg3 (W0 m ρ c)
theorem w3_arg4 : W3 m ρ c (Proc.devRef .tc main_arg4) = (m ((c : Thread nD τ).loc main_arg4)) := KHost.pre_arg4 (W0 m ρ c)
theorem w3_arg5 : W3 m ρ c (Proc.devRef .tc main_arg5) = (m ((c : Thread nD τ).loc main_arg5)) := KHost.pre_arg5 (W0 m ρ c)

/-! ## After the first region -/

/-- The first region's output array: the matrix product of the node features and the first weights. -/
theorem w4_v32 (hreg0 : ∀ (V : (c : Dev nD) → (b : Ref sig .tc) → Buf (Elt Ideal) ((c : Thread nD τ).loc b)) (c : Dev nD), (dat0 (F := Ideal) V c).arrAt 2 cfg0.N = Cert.ReferenceIdeal.Spec.dense1 (F := Ideal) (V c main_arg0) (V c main_arg2)) :
    W4 m ρ c (Proc.devRef .tc main_v32) = (Cert.ReferenceIdeal.Spec.dense1 (F := Ideal) (m ((c : Thread nD τ).loc main_arg0)) (m ((c : Thread nD τ).loc main_arg2))) := by
  refine (W4_arr m ρ c 2).trans ((hreg0 (V3 m ρ) c).trans ?_)
  show Cert.ReferenceIdeal.Spec.dense1 (F := Ideal) (W3 m ρ c (Proc.devRef .tc main_arg0)) (W3 m ρ c (Proc.devRef .tc main_arg2)) = _
  rw [w3_arg0, w3_arg2]
theorem w4_v3 : W4 m ρ c (Proc.devRef .tc main_v3) = (Cert.ReferenceIdeal.Spec.src (F := Ideal) (m ((c : Thread nD τ).loc main_arg1))) := (W4_of_ne m ρ c main_v3 (by decide)).trans (w3_v3 m ρ c)
theorem w4_v6 : W4 m ρ c (Proc.devRef .tc main_v6) = (Cert.ReferenceIdeal.Spec.dst (F := Ideal) (m ((c : Thread nD τ).loc main_arg1))) := (W4_of_ne m ρ c main_v6 (by decide)).trans (w3_v6 m ρ c)
theorem w4_v31 : W4 m ρ c (Proc.devRef .tc main_v31) = (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1)))) := (W4_of_ne m ρ c main_v31 (by decide)).trans (w3_v31 m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## At the second region's entry -/

/-- The first round of message passing. -/
theorem w5_v45 (hreg0 : ∀ (V : (c : Dev nD) → (b : Ref sig .tc) → Buf (Elt Ideal) ((c : Thread nD τ).loc b)) (c : Dev nD), (dat0 (F := Ideal) V c).arrAt 2 cfg0.N = Cert.ReferenceIdeal.Spec.dense1 (F := Ideal) (V c main_arg0) (V c main_arg2)) :
    W5 m ρ c (Proc.devRef .tc main_v45) = (Cert.ReferenceIdeal.Spec.agg128 (F := Ideal) (Cert.ReferenceIdeal.Spec.dense1 (F := Ideal) (m ((c : Thread nD τ).loc main_arg0)) (m ((c : Thread nD τ).loc main_arg2))) (Cert.ReferenceIdeal.Spec.src (F := Ideal) (m ((c : Thread nD τ).loc main_arg1))) (Cert.ReferenceIdeal.Spec.dst (F := Ideal) (m ((c : Thread nD τ).loc main_arg1))) (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1))))) := by
  refine (KHost.mid_v45 (W4 m ρ c)).trans ?_
  rw [w4_v32 m ρ c hreg0, w4_v3, w4_v6, w4_v31]
theorem w5_v3 : W5 m ρ c (Proc.devRef .tc main_v3) = (Cert.ReferenceIdeal.Spec.src (F := Ideal) (m ((c : Thread nD τ).loc main_arg1))) := (KHost.mid_v3 (W4 m ρ c)).trans (w4_v3 m ρ c)
theorem w5_v6 : W5 m ρ c (Proc.devRef .tc main_v6) = (Cert.ReferenceIdeal.Spec.dst (F := Ideal) (m ((c : Thread nD τ).loc main_arg1))) := (KHost.mid_v6 (W4 m ρ c)).trans (w4_v6 m ρ c)
theorem w5_v31 : W5 m ρ c (Proc.devRef .tc main_v31) = (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1)))) := (KHost.mid_v31 (W4 m ρ c)).trans (w4_v31 m ρ c)
theorem w5_arg3 : W5 m ρ c (Proc.devRef .tc main_arg3) = (m ((c : Thread nD τ).loc main_arg3)) := (KHost.mid_arg3 (W4 m ρ c)).trans (w4_arg3 m ρ c)
theorem w5_arg4 : W5 m ρ c (Proc.devRef .tc main_arg4) = (m ((c : Thread nD τ).loc main_arg4)) := (KHost.mid_arg4 (W4 m ρ c)).trans (w4_arg4 m ρ c)
theorem w5_arg5 : W5 m ρ c (Proc.devRef .tc main_arg5) = (m ((c : Thread nD τ).loc main_arg5)) := (KHost.mid_arg5 (W4 m ρ c)).trans (w4_arg5 m ρ c)

/-! ## After the second region -/

/-- The second region's output array: bias, clamp at zero, and the second matrix product. -/
theorem w6_v46 (hreg0 : ∀ (V : (c : Dev nD) → (b : Ref sig .tc) → Buf (Elt Ideal) ((c : Thread nD τ).loc b)) (c : Dev nD), (dat0 (F := Ideal) V c).arrAt 2 cfg0.N = Cert.ReferenceIdeal.Spec.dense1 (F := Ideal) (V c main_arg0) (V c main_arg2))
    (hreg1 : ∀ (V : (c : Dev nD) → (b : Ref sig .tc) → Buf (Elt Ideal) ((c : Thread nD τ).loc b)) (c : Dev nD), (dat1 (F := Ideal) V c).arrAt 3 cfg1.N = Cert.ReferenceIdeal.Spec.dense2 (F := Ideal) (V c main_v45) (V c main_arg3) (V c main_arg4)) :
    W6 m ρ c (Proc.devRef .tc main_v46) = (Cert.ReferenceIdeal.Spec.dense2 (F := Ideal) (Cert.ReferenceIdeal.Spec.agg128 (F := Ideal) (Cert.ReferenceIdeal.Spec.dense1 (F := Ideal) (m ((c : Thread nD τ).loc main_arg0)) (m ((c : Thread nD τ).loc main_arg2))) (Cert.ReferenceIdeal.Spec.src (F := Ideal) (m ((c : Thread nD τ).loc main_arg1))) (Cert.ReferenceIdeal.Spec.dst (F := Ideal) (m ((c : Thread nD τ).loc main_arg1))) (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1))))) (m ((c : Thread nD τ).loc main_arg3)) (m ((c : Thread nD τ).loc main_arg4))) := by
  refine (W6_arr m ρ c 3).trans ((hreg1 (V5 m ρ) c).trans ?_)
  show Cert.ReferenceIdeal.Spec.dense2 (F := Ideal) (W5 m ρ c (Proc.devRef .tc main_v45)) (W5 m ρ c (Proc.devRef .tc main_arg3)) (W5 m ρ c (Proc.devRef .tc main_arg4)) = _
  rw [w5_v45 m ρ c hreg0, w5_arg3, w5_arg4]
theorem w6_v3 : W6 m ρ c (Proc.devRef .tc main_v3) = (Cert.ReferenceIdeal.Spec.src (F := Ideal) (m ((c : Thread nD τ).loc main_arg1))) := (W6_of_ne m ρ c main_v3 (by decide)).trans (w5_v3 m ρ c)
theorem w6_v6 : W6 m ρ c (Proc.devRef .tc main_v6) = (Cert.ReferenceIdeal.Spec.dst (F := Ideal) (m ((c : Thread nD τ).loc main_arg1))) := (W6_of_ne m ρ c main_v6 (by decide)).trans (w5_v6 m ρ c)
theorem w6_v31 : W6 m ρ c (Proc.devRef .tc main_v31) = (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1)))) := (W6_of_ne m ρ c main_v31 (by decide)).trans (w5_v31 m ρ c)
theorem w6_arg5 : W6 m ρ c (Proc.devRef .tc main_arg5) = (m ((c : Thread nD τ).loc main_arg5)) := (W6_of_ne m ρ c main_arg5 (by decide)).trans (w5_arg5 m ρ c)

/-! ## At the third region's entry -/

/-- The second round of message passing. -/
theorem w7_v59 (hreg0 : ∀ (V : (c : Dev nD) → (b : Ref sig .tc) → Buf (Elt Ideal) ((c : Thread nD τ).loc b)) (c : Dev nD), (dat0 (F := Ideal) V c).arrAt 2 cfg0.N = Cert.ReferenceIdeal.Spec.dense1 (F := Ideal) (V c main_arg0) (V c main_arg2))
    (hreg1 : ∀ (V : (c : Dev nD) → (b : Ref sig .tc) → Buf (Elt Ideal) ((c : Thread nD τ).loc b)) (c : Dev nD), (dat1 (F := Ideal) V c).arrAt 3 cfg1.N = Cert.ReferenceIdeal.Spec.dense2 (F := Ideal) (V c main_v45) (V c main_arg3) (V c main_arg4)) :
    W7 m ρ c (Proc.devRef .tc main_v59) = (Cert.ReferenceIdeal.Spec.agg16 (F := Ideal) (Cert.ReferenceIdeal.Spec.dense2 (F := Ideal) (Cert.ReferenceIdeal.Spec.agg128 (F := Ideal) (Cert.ReferenceIdeal.Spec.dense1 (F := Ideal) (m ((c : Thread nD τ).loc main_arg0)) (m ((c : Thread nD τ).loc main_arg2))) (Cert.ReferenceIdeal.Spec.src (F := Ideal) (m ((c : Thread nD τ).loc main_arg1))) (Cert.ReferenceIdeal.Spec.dst (F := Ideal) (m ((c : Thread nD τ).loc main_arg1))) (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1))))) (m ((c : Thread nD τ).loc main_arg3)) (m ((c : Thread nD τ).loc main_arg4))) (Cert.ReferenceIdeal.Spec.src (F := Ideal) (m ((c : Thread nD τ).loc main_arg1))) (Cert.ReferenceIdeal.Spec.dst (F := Ideal) (m ((c : Thread nD τ).loc main_arg1))) (Cert.ReferenceIdeal.Spec.norm (F := Ideal) (Cert.ReferenceIdeal.Spec.src (F := Ideal) (m ((c : Thread nD τ).loc main_arg1))) (Cert.ReferenceIdeal.Spec.dst (F := Ideal) (m ((c : Thread nD τ).loc main_arg1))))) := by
  refine (KHost.last_v59 (W6 m ρ c)).trans ?_
  rw [w6_v46 m ρ c hreg0 hreg1, w6_v3, w6_v6, w6_v31]
theorem w7_arg5 : W7 m ρ c (Proc.devRef .tc main_arg5) = (m ((c : Thread nD τ).loc main_arg5)) := (KHost.last_arg5 (W6 m ρ c)).trans (w6_arg5 m ρ c)

/-! ## The result -/

/-- The result buffer at the last boundary is the specification's function of the launch memory's argument arrays. -/
theorem value (hreg0 : ∀ (V : (c : Dev nD) → (b : Ref sig .tc) → Buf (Elt Ideal) ((c : Thread nD τ).loc b)) (c : Dev nD), (dat0 (F := Ideal) V c).arrAt 2 cfg0.N = Cert.ReferenceIdeal.Spec.dense1 (F := Ideal) (V c main_arg0) (V c main_arg2))
    (hreg1 : ∀ (V : (c : Dev nD) → (b : Ref sig .tc) → Buf (Elt Ideal) ((c : Thread nD τ).loc b)) (c : Dev nD), (dat1 (F := Ideal) V c).arrAt 3 cfg1.N = Cert.ReferenceIdeal.Spec.dense2 (F := Ideal) (V c main_v45) (V c main_arg3) (V c main_arg4))
    (hreg2 : ∀ (V : (c : Dev nD) → (b : Ref sig .tc) → Buf (Elt Ideal) ((c : Thread nD τ).loc b)) (c : Dev nD), (dat2 (F := Ideal) V c).arrAt 2 cfg2.N = Cert.ReferenceIdeal.Spec.logsm (F := Ideal) (V c main_v59) (V c main_arg5)) :
    W8 m ρ c (Proc.devRef .tc main_v60)
      = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((hreg2 (V7 m ρ) c).trans ?_)
  show Cert.ReferenceIdeal.Spec.logsm (F := Ideal) (W7 m ρ c (Proc.devRef .tc main_v59)) (W7 m ρ c (Proc.devRef .tc main_arg5)) = _
  rw [w7_v59 m ρ c hreg0 hreg1, w7_arg5]
  rfl

end Cert.KernelIdeal.KValue

end
-- ==== Proof.Reg0.lean ====
/-
  Region 0 (the blocked matrix product). At grid point `t` the body stores, into rows 5000·t … 5000·t + 4999 of the output,
  the product of rows 5000·t … of `x` with the whole of `W1`: entry (r, j) of the stored block is Σ_k x(5000·t + r, k) · W1(k, j),
  which is entry (5000·t + r, j) of the whole product. The twenty blocks tile the output's rows, so after the region the
  output array is the whole product. Sums are over a commutative monoid (the extended reals), so no finiteness is used.
-/
import proofs.«135182_j56891136803140_1_alg».proof.Proof.Spec
import proofs.«135182_j56891136803140_1_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Reg0

open Cert.KernelIdeal Cert.KernelIdeal.Gen Idealize.ShloMosaic Idealize.ShloMosaic.TcCoe Idealize.SL.Sem
open Idealize.ShloMosaic.ValueIdx

/-! ## The block product read at an entry -/

/-- The left operand's row is the output's row. -/
theorem klhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

/-- The left operand's column is the contraction coordinate. -/
theorem klhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q

/-- The right operand's row is the contraction coordinate. -/
theorem krhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q

/-- The right operand's column is the output's column. -/
theorem krhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (r, j) of the stored block: the sum over k of x(r, k) · w(k, j). -/
theorem pay_apply (x0 : Vec Ideal S5000x256 .f32) (x1 : Vec Ideal S256x128 .f32) (r : Fin 5000) (j : Fin 128) :
    k0_pay1 x0 x1 (ix2 r j) = ∑ k : Fin 256, x0 (ix2 r k) * x1 (ix2 k j) := by
  unfold k0_pay1
  refine (Ideal.matmul_constant_zero_apply dot_S5000x256_S256x128_S5000x128_1_0_0_1_n_n none _ _ (ix2 r j)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r j) ((contrEquiv1 dot_S5000x256_S256x128_S5000x128_1_0_0_1_n_n 256 rfl rfl).symm k) = ix2 r k := funext fun a => Fin.ext (by
    match a with
    | ⟨0, _⟩ => exact klhs_0 _ _
    | ⟨1, _⟩ => exact (klhs_1 _ _).trans hk)
  have er : dot_S5000x256_S256x128_S5000x128_1_0_0_1_n_n.rhsIdx (ix2 r j) ((contrEquiv1 dot_S5000x256_S256x128_S5000x128_1_0_0_1_n_n 256 rfl rfl).symm k) = ix2 k j := funext fun a => Fin.ext (by
    match a with
    | ⟨0, _⟩ => exact (krhs_0 _ _).trans hk
    | ⟨1, _⟩ => exact krhs_1 _ _)
  rw [el, er]
  rfl

/-! ## The whole product read at an entry -/

theorem rlhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl

theorem rlhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q

theorem rrhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q

theorem rrhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- Entry (i, j) of the whole product: the sum over k of x(i, k) · w(k, j). -/
theorem dense1_apply (X : Vec Ideal S100000x256 .f32) (W : Vec Ideal S256x128 .f32) (i : Fin 100000) (j : Fin 128) :
    Cert.ReferenceIdeal.Spec.dense1 (F := Ideal) X W (ix2 i j) = ∑ k : Fin 256, X (ix2 i k) * W (ix2 k j) := by
  unfold Cert.ReferenceIdeal.Spec.dense1
  simp only [Host.dotGeneral]
  refine (Ideal.dotGeneral_apply Cert.ReferenceIdeal.dot_S100000x256_S256x128_S100000x128_1_0_0_1_n_n none _ _ _ (ix2 i j)).trans ?_
  rw [← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 i j) ((contrEquiv1 Cert.ReferenceIdeal.dot_S100000x256_S256x128_S100000x128_1_0_0_1_n_n 256 rfl rfl).symm k) = ix2 i k := funext fun a => Fin.ext (by
    match a with
    | ⟨0, _⟩ => exact rlhs_0 _ _
    | ⟨1, _⟩ => exact (rlhs_1 _ _).trans hk)
  have er : Cert.ReferenceIdeal.dot_S100000x256_S256x128_S100000x128_1_0_0_1_n_n.rhsIdx (ix2 i j) ((contrEquiv1 Cert.ReferenceIdeal.dot_S100000x256_S256x128_S100000x128_1_0_0_1_n_n 256 rfl rfl).symm k) = ix2 k j := funext fun a => Fin.ext (by
    match a with
    | ⟨0, _⟩ => exact (rrhs_0 _ _).trans hk
    | ⟨1, _⟩ => exact rrhs_1 _ _)
  rw [el, er]

/-! ## One entry of a stored block against one entry of the whole product -/

/-- If the left block is rows of `X` (the block's row `y 0` being `X`'s row `i 0`), the right block is `W`, and the
    columns agree, the stored block at `y` is the whole product at `i`. -/
theorem block_entry (x0 : Vec Ideal S5000x256 .f32) (x1 : Vec Ideal S256x128 .f32)
    (X : Vec Ideal S100000x256 .f32) (W : Vec Ideal S256x128 .f32) (y : S5000x128.Idx) (i : S100000x128.Idx)
    (hx : ∀ (p : S5000x256.Idx) (q : S100000x256.Idx), (p 0).val = (y 0).val → (q 0).val = (i 0).val → (p 1).val = (q 1).val → x0 p = X q)
    (hw : x1 = W) (hj : (y 1).val = (i 1).val) :
    k0_pay1 x0 x1 y = Cert.ReferenceIdeal.Spec.dense1 (F := Ideal) X W i := by
  obtain ⟨r, j, rfl⟩ : ∃ (r : Fin 5000) (j : Fin 128), y = ix2 r j := ⟨y 0, y 1, eq_ix2 y⟩
  obtain ⟨i0, i1, rfl⟩ : ∃ (a : Fin 100000) (b : Fin 128), i = ix2 a b := ⟨i 0, i 1, eq_ix2 i⟩
  have e : i1 = j := Fin.ext hj.symm
  subst e
  rw [pay_apply, dense1_apply, hw]
  exact Finset.sum_congr rfl fun k _ => by rw [hx (ix2 r k) (ix2 i0 k) rfl rfl rfl]

/-! ## From blocks to the array -/

theorem hz : (![0, 0] : Fin 2 → Nat) = fun _ => 0 := funext fun a => by fin_cases a <;> rfl

/-- The printed index maps over the grid: the left operand's block moves with the output's along the rows, the right
    operand's block is the whole array, and the output's block index at point `t` is `(t, 0)`. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays as the region finds them. -/
theorem flushed_eq (c : Dev nD) (t : Fin cfg0.N) :
    (dat0 (F := Ideal) V c).flushed 2 t
      = ((cfg0.win 2).blk t).view.read (Elt Ideal) (Cert.ReferenceIdeal.Spec.dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext y
  have hy0 : (y 0).val < 5000 := (y 0).isLt
  have hy1 : (y 1).val < 128 := (y 1).isLt
  show k0_pay1 (iblk0 V c 0 t) (iblk0 V c 1 t) ((cfg0.win 2).xinj (grid0.coords t) y)
    = Cert.ReferenceIdeal.Spec.dense1 (F := Ideal) (V c main_arg0) (V c main_arg2) (((cfg0.win 2).blk t).view.emb y)
  refine block_entry _ _ _ _ _ _ (fun p q h0 h1 h2 => ?_) ?_ ?_
  · have h0' : (p 0).val = (y 0).val := h0
    have h1' : (q 0).val = win0_2.index t (0 : Fin 2) * 5000 + 1 * (y 0).val := h1
    unfold iblk0
    rw [View.read_apply]
    show V c main_arg0 (((cfg0.win 0).blk t).view.emb p) = V c main_arg0 q
    refine congrArg (V c main_arg0) (funext fun a => Fin.ext ?_)
    match a with
    | ⟨0, _⟩ => show win0_0.index t (0 : Fin 2) * 5000 + 1 * (p 0).val = (q 0).val; omega
    | ⟨1, _⟩ => show win0_0.index t (1 : Fin 2) * 256 + 1 * (p 1).val = (q 1).val; omega
  · funext p
    unfold iblk0
    rw [View.read_apply]
    show V c main_arg2 (((cfg0.win 1).blk t).view.emb p) = V c main_arg2 p
    refine congrArg (V c main_arg2) (funext fun a => Fin.ext ?_)
    match a with
    | ⟨0, _⟩ => show win0_1.index t (0 : Fin 2) * 256 + 1 * (p 0).val = (p 0).val; omega
    | ⟨1, _⟩ => show win0_1.index t (1 : Fin 2) * 128 + 1 * (p 1).val = (p 1).val; omega
  · show (y 1).val = win0_2.index t (1 : Fin 2) * 128 + 1 * (y 1).val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index lies in the block of the point its row falls in: row `r` is in block `r / 5000`. -/
theorem cover (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the whole product of the two arrays the region read. -/
theorem final (c : Dev nD) :
    (dat0 (F := Ideal) V c).arrAt 2 cfg0.N = Cert.ReferenceIdeal.Spec.dense1 (F := Ideal) (V c main_arg0) (V c main_arg2) :=
  (dat0 (F := Ideal) V c).arrAt_eq_of_cover 2 _ (fun t _ => flushed_eq V c t) cover

end Cert.KernelIdeal.Reg0

end
-- ==== Proof.Reg1.lean ====
/-
  Region 1 (bias, clamp at zero, blocked matrix product). At grid point `t` the body stores, into rows 5000·t … 5000·t + 4999
  of the output, the product of max(a + b, 0) on rows 5000·t … of `a` (the bias `b` added to every row) with the whole of `W2`:
  entry (r, j) of the stored block is Σ_k max(a(5000·t + r, k) + b(k), 0) · W2(k, j), which is entry (5000·t + r, j) of the
  whole product. The twenty blocks tile the output's rows, so after the region the output array is the whole product.
  Sums are over a commutative monoid (the extended reals), so no finiteness is used.
-/
import proofs.«135182_j56891136803140_1_alg».proof.Proof.Spec
import proofs.«135182_j56891136803140_1_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Reg1

open Cert.KernelIdeal Cert.KernelIdeal.Gen Idealize.ShloMosaic Idealize.ShloMosaic.TcCoe Idealize.SL.Sem
open Idealize.ShloMosaic.ValueIdx

/-! ## The layout operations around the bias, read at an entry -/

/-- The kernel's bias: `[128]` cast to `[1, 128]` and repeated over the 5000 rows reads, at `(r, k)`, the bias at `k`. -/
theorem kbias (v0 : Vec Ideal S128 .f32) (h1 : S128.ShapeCasts S1x128) (h2 : S1x128.ShapeCasts S1x128)
    (h3 : S1x128.Broadcasts S5000x128) (r : Fin 5000) (k : Fin 128) :
    broadcastTo S5000x128 (shapeCast S1x128 (shapeCast S1x128 v0 h1) h2) h3 (ix2 r k) = v0 (ix1 k) := by
  rw [shapeCast_self]
  exact (broadcastTo_1b_ab_apply _ h3 r k).trans (shapeCast_a_1a_apply v0 h1 0 k)

/-- The reference's bias: `[128]` placed on axis 1 of `[1, 128]` and repeated over the 100000 rows reads, at `(i, k)`,
    the bias at `k`. -/
theorem rbias (b : Vec Ideal S128 .f32) (h1 : Cert.ReferenceIdeal.S128.BroadcastsInDim Cert.ReferenceIdeal.S1x128 ![1])
    (h2 : Cert.ReferenceIdeal.S1x128.BroadcastsInDim Cert.ReferenceIdeal.S100000x128 ![0, 1]) (i : Fin 100000) (k : Fin 128) :
    broadcastInDim Cert.ReferenceIdeal.S100000x128 ![0, 1] h2 (broadcastInDim Cert.ReferenceIdeal.S1x128 ![1] h1 b) (ix2 i k) = b (ix1 k) := by
  refine (broadcastInDim_apply ![0, 1] h2 _ (ix2 i k) (ix2 (0 : Fin 1) k) fun a => ?_).trans ?_
  · match a with
    | ⟨0, _⟩ => rfl
    | ⟨1, _⟩ => rfl
  · refine broadcastInDim_apply ![1] h1 b (ix2 (0 : Fin 1) k) (ix1 k) fun a => ?_
    match a with
    | ⟨0, _⟩ => rfl

/-- The reference's zero: the scalar zero repeated over the array reads `0` everywhere. -/
theorem rzero (h : Cert.ReferenceIdeal.S_.BroadcastsInDim Cert.ReferenceIdeal.S100000x128 ![]) (i : Cert.ReferenceIdeal.S100000x128.Idx) :
    broadcastInDim Cert.ReferenceIdeal.S100000x128 ![] h (constant (F := Ideal) Cert.ReferenceIdeal.S_ .f32 0x00000000#32) i = 0 := by
  refine (broadcastInDim_apply ![] h _ i ix0 fun a => a.elim0).trans ?_
  exact Ideal.ofBits_zero_f32

/-! ## The block product read at an entry -/

theorem klhs_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl

theorem klhs_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q

theorem krhs_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q

theorem krhs_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Entry (r, j) of the stored block: the sum over k of max(a(r, k) + b(k), 0) · w(k, j). -/
theorem pay_apply (v0 : Vec Ideal S128 .f32) (v4 : Vec Ideal S5000x128 .f32) (v10 : Vec Ideal S128x16 .f32) (r : Fin 5000) (j : Fin 16) :
    k1_pay1 v0 v4 v10 (ix2 r j) = ∑ k : Fin 128, max (v4 (ix2 r k) + v0 (ix1 k)) 0 * v10 (ix2 k j) := by
  unfold k1_pay1
  refine (Ideal.matmul_constant_zero_apply dot_S5000x128_S128x16_S5000x16_1_0_0_1_n_n none _ _ (ix2 r j)).trans ?_
  rw [← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 r j) ((contrEquiv1 dot_S5000x128_S128x16_S5000x16_1_0_0_1_n_n 128 rfl rfl).symm k) = ix2 r k := funext fun a => Fin.ext (by
    match a with
    | ⟨0, _⟩ => exact klhs_0 _ _
    | ⟨1, _⟩ => exact (klhs_1 _ _).trans hk)
  have er : dot_S5000x128_S128x16_S5000x16_1_0_0_1_n_n.rhsIdx (ix2 r j) ((contrEquiv1 dot_S5000x128_S128x16_S5000x16_1_0_0_1_n_n 128 rfl rfl).symm k) = ix2 k j := funext fun a => Fin.ext (by
    match a with
    | ⟨0, _⟩ => exact (krhs_0 _ _).trans hk
    | ⟨1, _⟩ => exact krhs_1 _ _)
  rw [el, er]
  show max (shapeCast S5000x128 v4 _ (ix2 r k) + broadcastTo S5000x128 (shapeCast S1x128 (shapeCast S1x128 v0 _) _) _ (ix2 r k)) (Ideal.ofBits .f32 0x00000000#32) * v10 (ix2 k j) = _
  rw [shapeCast_self, kbias, Ideal.ofBits_zero_f32]

/-! ## The whole product read at an entry -/

theorem rlhs_0 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x16_S100000x16_1_0_0_1_n_n.lhsBatch by decide), dif_pos (show (0 : Fin Cert.ReferenceIdeal.S100000x128.rank) ∈ Cert.ReferenceIdeal.dot_S100000x128_S128x16_S100000x16_1_0_0_1_n_n.lhsNonContracting by decide)]
  rfl

theorem rlhs_1 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.lhsIdx i q 1).val = (q ⟨0, by decide⟩).val :=
  Cert.ReferenceIdeal.dot_S100000x128_S128x16_S100000x16_1_0_0_1_n_n.lhsIdx_val_of_single rfl i q

theorem rrhs_0 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.rhsIdx i q 0).val = (q ⟨0, by decide⟩).val :=
  Cert.ReferenceIdeal.dot_S100000x128_S128x16_S100000x16_1_0_0_1_n_n.rhsIdx_val_of_single rfl i q

theorem rrhs_1 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.rhsIdx i q 1).val = (i 1).val := by
  unfold DotDims.rhsIdx
  rw [dif_neg (show ¬(1 : Fin Cert.ReferenceIdeal.S128x16.rank) ∈ Cert.ReferenceIdeal.dot_S100000x128_S128x16_S100000x16_1_0_0_1_n_n.rhsBatch by decide), dif_pos (show (1 : Fin Cert.ReferenceIdeal.S128x16.rank) ∈ Cert.ReferenceIdeal.dot_S100000x128_S128x16_S100000x16_1_0_0_1_n_n.rhsNonContracting by decide)]
  rfl

/-- Entry (i, j) of the whole product: the sum over k of max(a(i, k) + b(k), 0) · w(k, j). -/
theorem dense2_apply (A : Vec Ideal S100000x128 .f32) (b : Vec Ideal S128 .f32) (W : Vec Ideal S128x16 .f32) (i : Fin 100000) (j : Fin 16) :
    Cert.ReferenceIdeal.Spec.dense2 (F := Ideal) A b W (ix2 i j) = ∑ k : Fin 128, max (A (ix2 i k) + b (ix1 k)) 0 * W (ix2 k j) := by
  unfold Cert.ReferenceIdeal.Spec.dense2
  simp only [Host.dotGeneral]
  refine (Ideal.dotGeneral_apply Cert.ReferenceIdeal.dot_S100000x128_S128x16_S100000x16_1_0_0_1_n_n none _ _ _ (ix2 i j)).trans ?_
  rw [← Equiv.sum_comp (contrEquiv1 Cert.ReferenceIdeal.dot_S100000x128_S128x16_S100000x16_1_0_0_1_n_n 128 rfl rfl).symm]
  refine Finset.sum_congr rfl fun k _ => ?_
  have hk := contrEquiv1_symm_val Cert.ReferenceIdeal.dot_S100000x128_S128x16_S100000x16_1_0_0_1_n_n 128 rfl rfl k
  have el : Cert.ReferenceIdeal.dot_S100000x128_S128x16_S100000x16_1_0_0_1_n_n.lhsIdx (ix2 i j) ((contrEquiv1 Cert.ReferenceIdeal.dot_S100000x128_S128x16_S100000x16_1_0_0_1_n_n 128 rfl rfl).symm k) = ix2 i k := funext fun a => Fin.ext (by
    match a with
    | ⟨0, _⟩ => exact rlhs_0 _ _
    | ⟨1, _⟩ => exact (rlhs_1 _ _).trans hk)
  have er : Cert.ReferenceIdeal.dot_S100000x128_S128x16_S100000x16_1_0_0_1_n_n.rhsIdx (ix2 i j) ((contrEquiv1 Cert.ReferenceIdeal.dot_S100000x128_S128x16_S100000x16_1_0_0_1_n_n 128 rfl rfl).symm k) = ix2 k j := funext fun a => Fin.ext (by
    match a with
    | ⟨0, _⟩ => exact (rrhs_0 _ _).trans hk
    | ⟨1, _⟩ => exact rrhs_1 _ _)
  rw [el, er]
  show max (A (ix2 i k) + broadcastInDim Cert.ReferenceIdeal.S100000x128 ![0, 1] _ (broadcastInDim Cert.ReferenceIdeal.S1x128 ![1] _ b) (ix2 i k)) (broadcastInDim Cert.ReferenceIdeal.S100000x128 ![] _ (constant (F := Ideal) Cert.ReferenceIdeal.S_ .f32 0x00000000#32) (ix2 i k)) * W (ix2 k j) = _
  rw [rbias, rzero]

/-! ## One entry of a stored block against one entry of the whole product -/

/-- If the left block is rows of `A` (the block's row `y 0` being `A`'s row `i 0`), the bias block is `b`, the right
    block is `W`, and the columns agree, the stored block at `y` is the whole product at `i`. -/
theorem block_entry (x0 : Vec Ideal S5000x128 .f32) (x1 : Vec Ideal S128 .f32) (x2 : Vec Ideal S128x16 .f32)
    (A : Vec Ideal S100000x128 .f32) (b : Vec Ideal S128 .f32) (W : Vec Ideal S128x16 .f32) (y : S5000x16.Idx) (i : S100000x16.Idx)
    (hx : ∀ (p : S5000x128.Idx) (q : S100000x128.Idx), (p 0).val = (y 0).val → (q 0).val = (i 0).val → (p 1).val = (q 1).val → x0 p = A q)
    (hb : x1 = b) (hw : x2 = W) (hj : (y 1).val = (i 1).val) :
    k1_pay1 x1 x0 x2 y = Cert.ReferenceIdeal.Spec.dense2 (F := Ideal) A b W i := by
  obtain ⟨r, j, rfl⟩ : ∃ (r : Fin 5000) (j : Fin 16), y = ix2 r j := ⟨y 0, y 1, eq_ix2 y⟩
  obtain ⟨i0, i1, rfl⟩ : ∃ (a : Fin 100000) (b : Fin 16), i = ix2 a b := ⟨i 0, i 1, eq_ix2 i⟩
  have e : i1 = j := Fin.ext hj.symm
  subst e
  rw [pay_apply, dense2_apply, hb, hw]
  exact Finset.sum_congr rfl fun k _ => by rw [hx (ix2 r k) (ix2 i0 k) rfl rfl rfl]

/-! ## From blocks to the array -/

theorem hz : (![0, 0] : Fin 2 → Nat) = fun _ => 0 := funext fun a => by fin_cases a <;> rfl

theorem hz1 : (![0] : Fin 1 → Nat) = fun _ => 0 := funext fun a => by fin_cases a; rfl

/-- The printed index maps over the grid: the left operand's block moves with the output's along the rows, the bias and
    the right operand are whole arrays, and the output's block index at point `t` is `(t, 0)`. -/
theorem idx_facts : ∀ t : Fin cfg1.N,
    win1_0.index t (0 : Fin 2) = win1_3.index t (0 : Fin 2) ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the arrays as the region finds them. -/
theorem flushed_eq (c : Dev nD) (t : Fin cfg1.N) :
    (dat1 (F := Ideal) V c).flushed 3 t
      = ((cfg1.win 3).blk t).view.read (Elt Ideal) (Cert.ReferenceIdeal.Spec.dense2 (F := Ideal) (V c main_v45) (V c main_arg3) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128) hz1, View.ld_unit_zero (S := S128x16) hz]
  obtain ⟨e0, e1, e2, e3, e4, e5, e6⟩ := idx_facts t
  funext y
  have hy0 : (y 0).val < 5000 := (y 0).isLt
  have hy1 : (y 1).val < 16 := (y 1).isLt
  show k1_pay1 (iblk1 V c 1 t) (iblk1 V c 0 t) (iblk1 V c 2 t) ((cfg1.win 3).xinj (grid1.coords t) y)
    = Cert.ReferenceIdeal.Spec.dense2 (F := Ideal) (V c main_v45) (V c main_arg3) (V c main_arg4) (((cfg1.win 3).blk t).view.emb y)
  refine block_entry _ _ _ _ _ _ _ _ (fun p q h0 h1 h2 => ?_) ?_ ?_ ?_
  · have h0' : (p 0).val = (y 0).val := h0
    have h1' : (q 0).val = win1_3.index t (0 : Fin 2) * 5000 + 1 * (y 0).val := h1
    unfold iblk1
    rw [View.read_apply]
    show V c main_v45 (((cfg1.win 0).blk t).view.emb p) = V c main_v45 q
    refine congrArg (V c main_v45) (funext fun a => Fin.ext ?_)
    match a with
    | ⟨0, _⟩ => show win1_0.index t (0 : Fin 2) * 5000 + 1 * (p 0).val = (q 0).val; omega
    | ⟨1, _⟩ => show win1_0.index t (1 : Fin 2) * 128 + 1 * (p 1).val = (q 1).val; omega
  · funext p
    unfold iblk1
    rw [View.read_apply]
    show V c main_arg3 (((cfg1.win 1).blk t).view.emb p) = V c main_arg3 p
    refine congrArg (V c main_arg3) (funext fun a => Fin.ext ?_)
    match a with
    | ⟨0, _⟩ => show win1_1.index t (0 : Fin 1) * 128 + 1 * (p 0).val = (p 0).val; omega
  · funext p
    unfold iblk1
    rw [View.read_apply]
    show V c main_arg4 (((cfg1.win 2).blk t).view.emb p) = V c main_arg4 p
    refine congrArg (V c main_arg4) (funext fun a => Fin.ext ?_)
    match a with
    | ⟨0, _⟩ => show win1_2.index t (0 : Fin 2) * 128 + 1 * (p 0).val = (p 0).val; omega
    | ⟨1, _⟩ => show win1_2.index t (1 : Fin 2) * 16 + 1 * (p 1).val = (p 1).val; omega
  · show (y 1).val = win1_3.index t (1 : Fin 2) * 16 + 1 * (y 1).val; omega

/-- An index of the array is in point `t`'s block iff each coordinate is in the block's range on its axis. -/
theorem mem_blk (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v46).slice (win1_3.rect t)).set ↔ _
  rw [View.set_slice_whole, Rect.mem_set_unit]
  exact Iff.rfl

/-- Every index lies in the block of the point its row falls in: row `r` is in block `r / 5000`. -/
theorem cover (i : S100000x16.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 16 := (i 1).isLt
  obtain ⟨t, ht⟩ : ∃ t : Fin cfg1.N, t.val = (i 0).val / 5000 := ⟨⟨(i 0).val / 5000, by rw [hN]; omega⟩, rfl⟩
  obtain ⟨e0, e1, e2, e3, e4, e5, e6⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- The output array after the region is the whole product of the arrays the region read. -/
theorem final (c : Dev nD) :
    (dat1 (F := Ideal) V c).arrAt 3 cfg1.N = Cert.ReferenceIdeal.Spec.dense2 (F := Ideal) (V c main_v45) (V c main_arg3) (V c main_arg4) :=
  (dat1 (F := Ideal) V c).arrAt_eq_of_cover 3 _ (fun t _ => flushed_eq V c t) cover

end Cert.KernelIdeal.Reg1

end
-- ==== Proof.Reg2.lean ====
/-
  Region 2: bias and row-wise log-softmax.

  With `X (i, j) = a (i, j) + b (j)`, the row maximum `M i` taken from minus infinity over the 16 lanes, the region
  leaves in its output array, at `(i, j)`, the value `X (i, j) - M i - log (Σ_k exp (X (i, k) - M i))`.

  The kernel computes it block by block: point `t` of 20 reads rows `5000 t … 5000 t + 4999` of `a` and the whole of
  `b`, takes each row's lane maximum and lane sum, and writes the same rows of the output. The reference computes it on
  whole arrays, the maximum joined once more with its initial value (which changes nothing: the maximum is already above
  it) and the sum started from zero. Both are read index by index as ONE function `rowLsm` of the row `X (i, ·)`; the row
  maximum is carried as the fold of `max` over the lanes from the initial word, never computed; no finiteness is used.
-/
import proofs.«135182_j56891136803140_1_alg».proof.Proof.Spec
import proofs.«135182_j56891136803140_1_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Reg2
open Cert.KernelIdeal Cert.KernelIdeal.Gen Idealize.ShloMosaic Idealize.ShloMosaic.TcCoe Idealize.SL.Sem
open Idealize.ShloMosaic.ValueIdx

/-! ## The row-wise log-softmax as one function of a row -/

/-- The word both programs start their row maximum from (the pattern of minus infinity). -/
abbrev negInf : EReal := Ideal.ofBits .f32 0xFF800000#32

/-- The maximum of a row of 16 entries, started from `negInf`. -/
def rowMax (x : Fin 16 → EReal) : EReal := (Finset.univ : Finset (Fin 16)).fold max negInf x

/-- The log-softmax of a row at lane `j`: `x j - max x - log (Σ_k exp (x k - max x))`. -/
def rowLsm (x : Fin 16 → EReal) (j : Fin 16) : EReal :=
  (x j - rowMax x) - Ideal.log (∑ k : Fin 16, Ideal.exp (x k - rowMax x))

/-- Bias and row-wise log-softmax of a whole array, index by index. -/
def G (a : (⟨2, ![100000, 16]⟩ : Shape).Idx → EReal) (b : (⟨1, ![16]⟩ : Shape).Idx → EReal) :
    (⟨2, ![100000, 16]⟩ : Shape).Idx → EReal :=
  fun i => rowLsm (fun k => a (ix2 (i 0) k) + b (ix1 k)) (i 1)

/-! ## The keepdims column forms read at an index -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's payload at an index -/

/-- The lane maximum of row `r` of a block. -/
theorem laneMax_apply (X : FVec Ideal S5000x16 .f32) (h : S5000x16.Reduces [1] S5000) (hφ : FKind.Formats .f32)
    (hacc : (0xFF800000#32 : BitVec 32) = 0xFF800000#32) (r : Fin 5000) :
    multiReduction .maximumf [1] S5000 X 0xFF800000#32 h hφ hacc (ix1 r) = rowMax (fun k => X (ix2 r k)) := by
  refine (Ideal.multiReduction_maximumf_single X 0xFF800000#32 h hφ hacc (ix1 r)).trans ?_
  show (Finset.univ : Finset (Fin 16)).fold max negInf (X ∘ h.lift (ix1 r)) = _
  unfold rowMax
  congr 1
  funext k
  refine congrArg X (funext fun c => Fin.ext ?_)
  match c with
  | ⟨0, _⟩ => rfl
  | ⟨1, _⟩ => rfl

/-- The lane sum of row `r` of a block. -/
theorem laneSum_apply (X : FVec Ideal S5000x16 .f32) (h : S5000x16.Reduces [1] S5000) (hφ : FKind.Formats .f32)
    (hacc : (0x00000000#32 : BitVec 32) = 0x00000000#32) (r : Fin 5000) :
    multiReduction .add [1] S5000 X 0x00000000#32 h hφ hacc (ix1 r) = ∑ k : Fin 16, X (ix2 r k) := by
  refine (Ideal.multiReduction_add_single X 0x00000000#32 h hφ hacc (ix1 r)).trans ?_
  show ∑ k : Fin 16, X (h.lift (ix1 r) k) = _
  refine Finset.sum_congr rfl fun k _ => congrArg X (funext fun c => Fin.ext ?_)
  match c with
  | ⟨0, _⟩ => rfl
  | ⟨1, _⟩ => rfl

/-- The bias row added to every row of the block. -/
theorem biasedBlk_apply (v0 : FVec Ideal S16 .f32) (v4 : FVec Ideal S5000x16 .f32) (h1 : S16.ShapeCasts S1x16)
    (h2 : S1x16.ShapeCasts S1x16) (h3 : S1x16.Broadcasts S5000x16) (h4 : S5000x16.ShapeCasts S5000x16)
    (r : Fin 5000) (k : Fin 16) :
    addf (shapeCast S5000x16 v4 h4) (broadcastTo S5000x16 (shapeCast S1x16 (shapeCast S1x16 v0 h1) h2) h3) (ix2 r k)
      = v4 (ix2 r k) + v0 (ix1 k) := by
  rw [addf_apply, shapeCast_self, shapeCast_self]
  refine congrArg (v4 (ix2 r k) + ·) ?_
  refine (broadcastTo_1b_ab_apply _ h3 r k).trans ?_
  exact shapeCast_a_1a_apply v0 h1 (0 : Fin 1) k

/-- A column made from a per-row vector and spread along the lanes reads the vector at the row. -/
theorem spread_apply (w : FVec Ideal S5000 .f32) (hs : S5000.ShapeCasts S5000x1) (hb : S5000x1.Broadcasts S5000x16)
    (r : Fin 5000) (k : Fin 16) :
    broadcastTo S5000x16 (shapeCast S5000x1 w hs) hb (ix2 r k) = w (ix1 r) :=
  (broadcastTo_a1_ab_apply _ hb r k).trans (shapeCast_a_a1_apply w hs r (0 : Fin 1))

/-- The body's arithmetic on a biased block `X`: its row-wise log-softmax. -/
theorem lsmBlk_apply (X : FVec Ideal S5000x16 .f32) (h : S5000x16.Reduces [1] S5000) (hφ : FKind.Formats .f32)
    (hm : (0xFF800000#32 : BitVec 32) = 0xFF800000#32) (hz : (0x00000000#32 : BitVec 32) = 0x00000000#32)
    (hs : S5000.ShapeCasts S5000x1) (hb : S5000x1.Broadcasts S5000x16) (r : Fin 5000) (j : Fin 16) :
    subf (subf X (broadcastTo S5000x16 (shapeCast S5000x1 (multiReduction .maximumf [1] S5000 X 0xFF800000#32 h hφ hm) hs) hb))
        (broadcastTo S5000x16 (log (shapeCast S5000x1 (multiReduction .add [1] S5000
          (exp (subf X (broadcastTo S5000x16 (shapeCast S5000x1 (multiReduction .maximumf [1] S5000 X 0xFF800000#32 h hφ hm) hs) hb)))
          0x00000000#32 h hφ hz) hs)) hb) (ix2 r j)
      = rowLsm (fun k => X (ix2 r k)) j := by
  have hsh : ∀ k : Fin 16, subf X (broadcastTo S5000x16 (shapeCast S5000x1 (multiReduction .maximumf [1] S5000 X 0xFF800000#32 h hφ hm) hs) hb) (ix2 r k)
      = X (ix2 r k) - rowMax (fun k => X (ix2 r k)) := fun k => by
    rw [subf_apply, spread_apply, laneMax_apply]
  rw [subf_apply, hsh j]
  unfold rowLsm
  refine congrArg (X (ix2 r j) - rowMax (fun k => X (ix2 r k)) - ·) ?_
  refine (broadcastTo_a1_ab_apply _ hb r j).trans ?_
  show Ideal.log (shapeCast S5000x1 _ hs (ix2 r (0 : Fin 1))) = _
  rw [shapeCast_a_a1_apply, laneSum_apply]
  refine congrArg Ideal.log (Finset.sum_congr rfl fun k _ => ?_)
  show Ideal.exp _ = _
  rw [hsh k]

/-- THE PAYLOAD AT AN INDEX: entry `(r, j)` of what the body stores is the log-softmax, at lane `j`, of row `r` of
    the input block plus the bias. -/
theorem pay_apply (v0 : Vec Ideal S16 .f32) (v4 : Vec Ideal S5000x16 .f32) (r : Fin 5000) (j : Fin 16) :
    k2_pay1 v0 v4 (ix2 r j) = rowLsm (fun k => v4 (ix2 r k) + v0 (ix1 k)) j := by
  unfold k2_pay1
  refine (lsmBlk_apply _ _ _ _ _ _ _ r j).trans ?_
  exact congrArg (fun f => rowLsm f j) (funext fun k => biasedBlk_apply v0 v4 _ _ _ _ r k)

/-! ## The reference's operations at an index -/

section Reference
/-- The bias added to every row, at an index. -/
theorem biased_apply (a : (⟨2, ![100000, 16]⟩ : Shape).Idx → EReal) (b : (⟨1, ![16]⟩ : Shape).Idx → EReal)
    (p : Fin 100000) (q : Fin 16) :
    Cert.ReferenceIdeal.Spec.biased (F := Ideal) a b (ix2 p q) = a (ix2 p q) + b (ix1 q) := by
  unfold Cert.ReferenceIdeal.Spec.biased
  rw [addf_apply]
  refine congrArg (a (ix2 p q) + ·) ?_
  refine (broadcastInDim_apply _ _ _ (ix2 p q) (ix2 (0 : Fin 1) q) fun ax => ?_).trans ?_
  · match ax with
    | ⟨0, _⟩ => rfl
    | ⟨1, _⟩ => rfl
  · refine broadcastInDim_apply _ _ _ (ix2 (0 : Fin 1) q) (ix1 q) fun ax => ?_
    match ax with
    | ⟨0, _⟩ => rfl

/-- The host's row maximum, joined with its initial value once more, at a row. -/
theorem hostRowMax_apply (X : (⟨2, ![100000, 16]⟩ : Shape).Idx → EReal)
    (h0 : Cert.ReferenceIdeal.S_.BroadcastsInDim Cert.ReferenceIdeal.S100000 (![] : Fin 0 → Fin Cert.ReferenceIdeal.S100000.rank))
    (h' : Cert.ReferenceIdeal.S100000x16.ReducesTo [1] Cert.ReferenceIdeal.S100000) (hu : 0 < Cert.ReferenceIdeal.S_.numel)
    (p : Fin 100000) :
    maximumf (F := Ideal) (φ := .f32) (broadcastInDim Cert.ReferenceIdeal.S100000 ![] h0 (constant (F := Ideal) Cert.ReferenceIdeal.S_ .f32 0xFF800000#32))
        (Host.reduce FloatOps.maximumf X (constant (F := Ideal) Cert.ReferenceIdeal.S_ .f32 0xFF800000#32) h' hu) (ix1 p)
      = rowMax (fun k => X (ix2 p k)) := by
  have h : Cert.ReferenceIdeal.S100000x16.Reduces [1] Cert.ReferenceIdeal.S100000 := by decide
  rw [maximumf_apply]
  have e1 : broadcastInDim Cert.ReferenceIdeal.S100000 ![] h0 (constant (F := Ideal) Cert.ReferenceIdeal.S_ .f32 0xFF800000#32) (ix1 p) = negInf :=
    broadcastInDim_apply _ h0 _ (ix1 p) ix0 fun ax => ax.elim0
  have e2 : Host.reduce FloatOps.maximumf X (constant (F := Ideal) Cert.ReferenceIdeal.S_ .f32 0xFF800000#32) h' hu (ix1 p)
      = rowMax (fun k => X (ix2 p k)) := by
    refine (Host.reduce_eq_fold_single (FloatOps.maximumf (F := Ideal) (φ := .f32)) X _ h' h hu (ix1 p)).trans ?_
    show (Finset.univ : Finset (Fin 16)).fold max negInf (X ∘ h.lift (ix1 p)) = _
    unfold rowMax
    congr 1
    funext k
    refine congrArg X (funext fun c => Fin.ext ?_)
    match c with
    | ⟨0, _⟩ => rfl
    | ⟨1, _⟩ => rfl
  rw [e1, e2]
  exact max_eq_right ((Finset.le_fold_max _).2 (Or.inl le_rfl))

/-- Every row minus its maximum, at an index. -/
theorem shifted_apply (X : (⟨2, ![100000, 16]⟩ : Shape).Idx → EReal) (p : Fin 100000) (q : Fin 16) :
    Cert.ReferenceIdeal.Spec.shifted (F := Ideal) X (ix2 p q) = X (ix2 p q) - rowMax (fun k => X (ix2 p k)) := by
  unfold Cert.ReferenceIdeal.Spec.shifted
  rw [subf_apply]
  refine congrArg (X (ix2 p q) - ·) ?_
  refine (broadcastInDim_apply _ _ _ (ix2 p q) (ix2 p (0 : Fin 1)) fun ax => ?_).trans ?_
  · match ax with
    | ⟨0, _⟩ => rfl
    | ⟨1, _⟩ => rfl
  refine (broadcastInDim_apply _ _ _ (ix2 p (0 : Fin 1)) (ix1 p) fun ax => ?_).trans ?_
  · match ax with
    | ⟨0, _⟩ => rfl
  exact hostRowMax_apply X _ _ _ p

/-- The host's logarithm and exponential at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The host's row sum from the zero word, at a row. -/
theorem hostRowSum_apply (Z : (⟨2, ![100000, 16]⟩ : Shape).Idx → EReal)
    (h' : Cert.ReferenceIdeal.S100000x16.ReducesTo [1] Cert.ReferenceIdeal.S100000) (hu : 0 < Cert.ReferenceIdeal.S_.numel)
    (p : Fin 100000) :
    Host.reduceAdd (F := Ideal) (φ := .f32) Z (constant (F := Ideal) Cert.ReferenceIdeal.S_ .f32 0x00000000#32) h' hu (ix1 p)
      = ∑ k : Fin 16, Z (ix2 p k) := by
  have h : Cert.ReferenceIdeal.S100000x16.Reduces [1] Cert.ReferenceIdeal.S100000 := by decide
  refine (Ideal.hostReduceAdd_single h' h Z _ (ix1 p)).trans ?_
  rw [constant_apply, Ideal.ofBits_zero_f32, zero_add]
  refine Finset.sum_congr rfl fun k _ => congrArg Z (funext fun c => Fin.ext ?_)
  match c with
  | ⟨0, _⟩ => rfl
  | ⟨1, _⟩ => rfl

/-- The logarithm of a row's sum of exponentials, at an index. -/
theorem lse_apply (Y : (⟨2, ![100000, 16]⟩ : Shape).Idx → EReal) (p : Fin 100000) (q : Fin 16) :
    Cert.ReferenceIdeal.Spec.lse (F := Ideal) Y (ix2 p q) = Ideal.log (∑ k : Fin 16, Ideal.exp (Y (ix2 p k))) := by
  unfold Cert.ReferenceIdeal.Spec.lse
  refine (broadcastInDim_apply _ _ _ (ix2 p q) (ix2 p (0 : Fin 1)) fun ax => ?_).trans ?_
  · match ax with
    | ⟨0, _⟩ => rfl
    | ⟨1, _⟩ => rfl
  refine (hostLog_apply _ _).trans (congrArg Ideal.log ?_)
  refine (broadcastInDim_apply _ _ _ (ix2 p (0 : Fin 1)) (ix1 p) fun ax => ?_).trans ?_
  · match ax with
    | ⟨0, _⟩ => rfl
  refine (hostRowSum_apply _ _ _ p).trans ?_
  exact Finset.sum_congr rfl fun k _ => hostExp_apply Y (ix2 p k)

/-- THE REFERENCE'S FUNCTION, index by index. -/
theorem logsm_eq (a : (⟨2, ![100000, 16]⟩ : Shape).Idx → EReal) (b : (⟨1, ![16]⟩ : Shape).Idx → EReal) :
    Cert.ReferenceIdeal.Spec.logsm (F := Ideal) a b = G a b := by
  funext i
  obtain ⟨p, q, rfl⟩ : ∃ (p : Fin 100000) (q : Fin 16), i = ix2 p q := ⟨i 0, i 1, eq_ix2 i⟩
  unfold Cert.ReferenceIdeal.Spec.logsm
  rw [subf_apply, lse_apply, shifted_apply, biased_apply]
  show _ = rowLsm (fun k => a (ix2 p k) + b (ix1 k)) q
  unfold rowLsm
  have hX : (fun k : Fin 16 => Cert.ReferenceIdeal.Spec.biased (F := Ideal) a b (ix2 p k)) = fun k => a (ix2 p k) + b (ix1 k) :=
    funext fun k => biased_apply a b p k
  rw [hX]
  refine congrArg (a (ix2 p q) + b (ix1 q) - rowMax (fun k => a (ix2 p k) + b (ix1 k)) - ·) ?_
  refine congrArg Ideal.log (Finset.sum_congr rfl fun k _ => ?_)
  rw [shifted_apply, hX, biased_apply]

end Reference

/-! ## From blocks to the array -/

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: the input and the output blocks are row block `t`, all lanes; the
    bias window is the whole bias. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of `G` of the arrays as the region finds them. -/
theorem flushed_eq (c : Dev nD) (t : Fin cfg2.N) :
    (dat2 (F := Ideal) V c).flushed 2 t
      = ((cfg2.win 2).blk t).view.read (Elt Ideal) (G (V c main_v59) (V c main_arg5)) := by
  show (cfg2.win 2).cut (grid2.coords t) ((dat2 (F := Ideal) V c).after 2 t) = _
  rw [after2_2]
  unfold out2_2
  rw [View.canon_unit_zero hz]
  simp only [View.ld_unit_zero (S := S5000x16) hz, View.ld_unit_zero (S := S16) hz1]
  obtain ⟨e0, e1, e2, e3, e4⟩ := idx_facts t
  refine funext fun (y : S5000x16.Idx) => ?_
  obtain ⟨r, j, rfl⟩ : ∃ (r : Fin 5000) (j : Fin 16), y = ix2 r j := ⟨y 0, y 1, eq_ix2 y⟩
  show k2_pay1 (iblk2 V c 1 t) (iblk2 V c 0 t) (ix2 r j)
    = G (V c main_v59) (V c main_arg5) (((cfg2.win 2).blk t).view.emb (ix2 r j))
  rw [pay_apply]
  unfold G
  have hj : ((cfg2.win 2).blk t).view.emb (ix2 r j) 1 = j := Fin.ext (by
    show win2_2.index t (1 : Fin 2) * 16 + 1 * j.val = j.val
    omega)
  have h0 : ∀ k : Fin 16, iblk2 V c 0 t (ix2 r k)
      = V c main_v59 (ix2 (((cfg2.win 2).blk t).view.emb (ix2 r j) 0) k) := fun k => by
    show V c main_v59 (((cfg2.win 0).blk t).view.emb (ix2 r k)) = _
    refine congrArg (V c main_v59) (funext fun a => Fin.ext ?_)
    match a with
    | ⟨0, _⟩ =>
      show win2_0.index t (0 : Fin 2) * 5000 + 1 * r.val = win2_2.index t (0 : Fin 2) * 5000 + 1 * r.val
      omega
    | ⟨1, _⟩ =>
      show win2_0.index t (1 : Fin 2) * 16 + 1 * k.val = k.val
      omega
  have h1 : ∀ k : Fin 16, iblk2 V c 1 t (ix1 k) = V c main_arg5 (ix1 k) := fun k => by
    show V c main_arg5 (((cfg2.win 1).blk t).view.emb (ix1 k)) = _
    refine congrArg (V c main_arg5) (funext fun a => Fin.ext ?_)
    match a with
    | ⟨0, _⟩ =>
      show win2_1.index t (0 : Fin 1) * 16 + 1 * k.val = k.val
      omega
  exact congrArg₂ rowLsm (funext fun k => by rw [h0 k, h1 k]) hj.symm

/-- An index of the array is in point `t`'s block iff each coordinate is in the block's range on its axis. -/
theorem mem_blk (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v60).slice (win2_2.rect t)).set ↔ _
  rw [View.set_slice_whole, Rect.mem_set_unit]
  exact Iff.rfl

/-- Every index of the array lies in the block of the point its row falls in: row `ρ` is in row block `ρ / 5000`. -/
theorem cover (i : S100000x16.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 16 := (i 1).isLt
  have ht : (i 0).val / 5000 < cfg2.N := by rw [hN]; omega
  obtain ⟨-, -, -, e3, e4⟩ := idx_facts ⟨(i 0).val / 5000, ht⟩
  have q0 : win2_2.index ⟨(i 0).val / 5000, ht⟩ (0 : Fin 2) = (i 0).val / 5000 := e3
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 16 ≤ (i 1).val
      ∧ (i 1).val < win2_2.index ⟨(i 0).val / 5000, ht⟩ (1 : Fin 2) * 16 + 16
    omega

/-- THE ARRAY after the region: the bias and row-wise log-softmax of the input array, which is the reference's function. -/
theorem final (V : (c : Dev nD) → (b : Ref sig .tc) → Buf (Elt Ideal) ((c : Thread nD τ).loc b)) (c : Dev nD) :
    (dat2 (F := Ideal) V c).arrAt 2 cfg2.N = Cert.ReferenceIdeal.Spec.logsm (F := Ideal) (V c main_v59) (V c main_arg5) :=
  ((dat2 (F := Ideal) V c).arrAt_eq_of_cover 2 (G (V c main_v59) (V c main_arg5)) (fun t _ => flushed_eq V c t) cover).trans
    (logsm_eq (V c main_v59) (V c main_arg5)).symm

end Cert.KernelIdeal.Reg2
end
-- ==== Proof.RefValue.lean ====
/-
  The idealized reference's result, read off its run: the result buffer ends at the specification's function of the six
  argument arrays as launched.

  The reference is a straight line of 137 host operations. It is read in seven stages: the edge list's rows followed by
  the self loops, and the first matrix product; the node degrees and the per-edge normalisation; one round of message
  passing; bias, clamp at zero and the second matrix product; the normalisation computed a second time by the same
  operations; the second round of message passing; bias and the row-wise log-softmax. Each stage is a function of the
  few buffers it reads, whatever the rest of the memory holds, and leaves alone the buffers later stages still need.
-/
import proofs.«135182_j56891136803140_1_alg».proof.Proof.Spec
import proofs.«135182_j56891136803140_1_alg».proof.Proof.RefRunP
import Idealize.ShloMosaic.Lib.StableHlo.Run

noncomputable section

namespace Cert.ReferenceIdeal.RefValue

open Cert.ReferenceIdeal Cert.ReferenceIdeal.ValueP Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a typed reference's buffer and back are unchanged. -/
theorem ofBuf_toBuf {T : BufTy} (x : TRef sig T) (v : T.Contents (Elt F)) : x.ofBuf (x.toBuf v) = v := by
  obtain ⟨r, h, h1, h2⟩ := x
  subst h
  rfl

/-! ## The stages -/

/-- The edges' sources and destinations, and the first matrix product. -/
abbrev sA : List (HloOp τ sig (Elt F)) := (ops (F := F)).take 8
/-- The first layer's degrees and edge normalisation. -/
abbrev sN1 : List (HloOp τ sig (Elt F)) := ((ops (F := F)).drop 8).take 36
/-- The first round of message passing. -/
abbrev sM1 : List (HloOp τ sig (Elt F)) := ((ops (F := F)).drop 44).take 16
/-- Bias, clamp at zero, and the second matrix product. -/
abbrev sD2 : List (HloOp τ sig (Elt F)) := ((ops (F := F)).drop 60).take 7
/-- The second layer's degrees and edge normalisation (the same operations again). -/
abbrev sN2 : List (HloOp τ sig (Elt F)) := ((ops (F := F)).drop 67).take 36
/-- The second round of message passing. -/
abbrev sM2 : List (HloOp τ sig (Elt F)) := ((ops (F := F)).drop 103).take 16
/-- Bias and the row-wise log-softmax. -/
abbrev sL : List (HloOp τ sig (Elt F)) := (ops (F := F)).drop 119

/-- The operations are the seven stages in order. -/
theorem ops_stages : (ops (F := F)) = sA ++ (sN1 ++ (sM1 ++ (sD2 ++ (sN2 ++ (sM2 ++ sL))))) := by rfl

/-! ## What each stage computes, and what it leaves alone -/

theorem sA_v3 (W : Valuation τ sig (Elt F)) :
    after (sA (F := F)) W (Proc.devRef .tc main_v3) = Spec.src (F := F) (W (Proc.devRef .tc main_arg1)) := by
  simp only [sA, ops, List.take_succ_cons, List.take_zero, List.drop_succ_cons, List.drop_zero]
  after_results
  rfl
theorem sA_v6 (W : Valuation τ sig (Elt F)) :
    after (sA (F := F)) W (Proc.devRef .tc main_v6) = Spec.dst (F := F) (W (Proc.devRef .tc main_arg1)) := by
  simp only [sA, ops, List.take_succ_cons, List.take_zero, List.drop_succ_cons, List.drop_zero]
  after_results
  rfl
theorem sA_v7 (W : Valuation τ sig (Elt F)) :
    after (sA (F := F)) W (Proc.devRef .tc main_v7) = Spec.dense1 (F := F) (W (Proc.devRef .tc main_arg0)) (W (Proc.devRef .tc main_arg2)) := by
  simp only [sA, ops, List.take_succ_cons, List.take_zero, List.drop_succ_cons, List.drop_zero]
  after_results_simp
  rfl
theorem sA_arg3 (W : Valuation τ sig (Elt F)) :
    after (sA (F := F)) W (Proc.devRef .tc main_arg3) = W (Proc.devRef .tc main_arg3) := by
  simp only [sA, ops, List.take_succ_cons, List.take_zero, List.drop_succ_cons, List.drop_zero]
  after_results_simp
theorem sA_arg4 (W : Valuation τ sig (Elt F)) :
    after (sA (F := F)) W (Proc.devRef .tc main_arg4) = W (Proc.devRef .tc main_arg4) := by
  simp only [sA, ops, List.take_succ_cons, List.take_zero, List.drop_succ_cons, List.drop_zero]
  after_results_simp
theorem sA_arg5 (W : Valuation τ sig (Elt F)) :
    after (sA (F := F)) W (Proc.devRef .tc main_arg5) = W (Proc.devRef .tc main_arg5) := by
  simp only [sA, ops, List.take_succ_cons, List.take_zero, List.drop_succ_cons, List.drop_zero]
  after_results_simp

theorem sN1_v32 (W : Valuation τ sig (Elt F)) :
    after (sN1 (F := F)) W (Proc.devRef .tc main_v32) = Spec.norm (F := F) (W (Proc.devRef .tc main_v3)) (W (Proc.devRef .tc main_v6)) := by
  simp only [sN1, ops, List.take_succ_cons, List.take_zero, List.drop_succ_cons, List.drop_zero]
  after_results_simp
  rfl
theorem sN1_v3 (W : Valuation τ sig (Elt F)) :
    after (sN1 (F := F)) W (Proc.devRef .tc main_v3) = W (Proc.devRef .tc main_v3) := by
  simp only [sN1, ops, List.take_succ_cons, List.take_zero, List.drop_succ_cons, List.drop_zero]
  after_results_simp
theorem sN1_v6 (W : Valuation τ sig (Elt F)) :
    after (sN1 (F := F)) W (Proc.devRef .tc main_v6) = W (Proc.devRef .tc main_v6) := by
  simp only [sN1, ops, List.take_succ_cons, List.take_zero, List.drop_succ_cons, List.drop_zero]
  after_results_simp
theorem sN1_v7 (W : Valuation τ sig (Elt F)) :
    after (sN1 (F := F)) W (Proc.devRef .tc main_v7) = W (Proc.devRef .tc main_v7) := by
  simp only [sN1, ops, List.take_succ_cons, List.take_zero, List.drop_succ_cons, List.drop_zero]
  after_results_simp
theorem sN1_arg3 (W : Valuation τ sig (Elt F)) :
    after (sN1 (F := F)) W (Proc.devRef .tc main_arg3) = W (Proc.devRef .tc main_arg3) := by
  simp only [sN1, ops, List.take_succ_cons, List.take_zero, List.drop_succ_cons, List.drop_zero]
  after_results_simp
theorem sN1_arg4 (W : Valuation τ sig (Elt F)) :
    after (sN1 (F := F)) W (Proc.devRef .tc main_arg4) = W (Proc.devRef .tc main_arg4) := by
  simp only [sN1, ops, List.take_succ_cons, List.take_zero, List.drop_succ_cons, List.drop_zero]
  after_results_simp
theorem sN1_arg5 (W : Valuation τ sig (Elt F)) :
    after (sN1 (F := F)) W (Proc.devRef .tc main_arg5) = W (Proc.devRef .tc main_arg5) := by
  simp only [sN1, ops, List.take_succ_cons, List.take_zero, List.drop_succ_cons, List.drop_zero]
  after_results_simp

theorem sM1_v45 (W : Valuation τ sig (Elt F)) :
    after (sM1 (F := F)) W (Proc.devRef .tc main_v45) = Spec.agg128 (F := F) (W (Proc.devRef .tc main_v7)) (W (Proc.devRef .tc main_v3)) (W (Proc.devRef .tc main_v6)) (W (Proc.devRef .tc main_v32)) := by
  simp only [sM1, ops, List.take_succ_cons, List.take_zero, List.drop_succ_cons, List.drop_zero]
  after_results_simp
  rfl
theorem sM1_v3 (W : Valuation τ sig (Elt F)) :
    after (sM1 (F := F)) W (Proc.devRef .tc main_v3) = W (Proc.devRef .tc main_v3) := by
  simp only [sM1, ops, List.take_succ_cons, List.take_zero, List.drop_succ_cons, List.drop_zero]
  after_results_simp
theorem sM1_v6 (W : Valuation τ sig (Elt F)) :
    after (sM1 (F := F)) W (Proc.devRef .tc main_v6) = W (Proc.devRef .tc main_v6) := by
  simp only [sM1, ops, List.take_succ_cons, List.take_zero, List.drop_succ_cons, List.drop_zero]
  after_results_simp
theorem sM1_arg3 (W : Valuation τ sig (Elt F)) :
    after (sM1 (F := F)) W (Proc.devRef .tc main_arg3) = W (Proc.devRef .tc main_arg3) := by
  simp only [sM1, ops, List.take_succ_cons, List.take_zero, List.drop_succ_cons, List.drop_zero]
  after_results_simp
theorem sM1_arg4 (W : Valuation τ sig (Elt F)) :
    after (sM1 (F := F)) W (Proc.devRef .tc main_arg4) = W (Proc.devRef .tc main_arg4) := by
  simp only [sM1, ops, List.take_succ_cons, List.take_zero, List.drop_succ_cons, List.drop_zero]
  after_results_simp
theorem sM1_arg5 (W : Valuation τ sig (Elt F)) :
    after (sM1 (F := F)) W (Proc.devRef .tc main_arg5) = W (Proc.devRef .tc main_arg5) := by
  simp only [sM1, ops, List.take_succ_cons, List.take_zero, List.drop_succ_cons, List.drop_zero]
  after_results_simp

theorem sD2_v50 (W : Valuation τ sig (Elt F)) :
    after (sD2 (F := F)) W (Proc.devRef .tc main_v50) = Spec.dense2 (F := F) (W (Proc.devRef .tc main_v45)) (W (Proc.devRef .tc main_arg3)) (W (Proc.devRef .tc main_arg4)) := by
  simp only [sD2, ops, List.take_succ_cons, List.take_zero, List.drop_succ_cons, List.drop_zero]
  after_results_simp
  rfl
theorem sD2_v3 (W : Valuation τ sig (Elt F)) :
    after (sD2 (F := F)) W (Proc.devRef .tc main_v3) = W (Proc.devRef .tc main_v3) := by
  simp only [sD2, ops, List.take_succ_cons, List.take_zero, List.drop_succ_cons, List.drop_zero]
  after_results_simp
theorem sD2_v6 (W : Valuation τ sig (Elt F)) :
    after (sD2 (F := F)) W (Proc.devRef .tc main_v6) = W (Proc.devRef .tc main_v6) := by
  simp only [sD2, ops, List.take_succ_cons, List.take_zero, List.drop_succ_cons, List.drop_zero]
  after_results_simp
theorem sD2_arg5 (W : Valuation τ sig (Elt F)) :
    after (sD2 (F := F)) W (Proc.devRef .tc main_arg5) = W (Proc.devRef .tc main_arg5) := by
  simp only [sD2, ops, List.take_succ_cons, List.take_zero, List.drop_succ_cons, List.drop_zero]
  after_results_simp

theorem sN2_v75 (W : Valuation τ sig (Elt F)) :
    after (sN2 (F := F)) W (Proc.devRef .tc main_v75) = Spec.norm (F := F) (W (Proc.devRef .tc main_v3)) (W (Proc.devRef .tc main_v6)) := by
  simp only [sN2, ops, List.take_succ_cons, List.take_zero, List.drop_succ_cons, List.drop_zero]
  after_results_simp
  rfl
theorem sN2_v3 (W : Valuation τ sig (Elt F)) :
    after (sN2 (F := F)) W (Proc.devRef .tc main_v3) = W (Proc.devRef .tc main_v3) := by
  simp only [sN2, ops, List.take_succ_cons, List.take_zero, List.drop_succ_cons, List.drop_zero]
  after_results_simp
theorem sN2_v6 (W : Valuation τ sig (Elt F)) :
    after (sN2 (F := F)) W (Proc.devRef .tc main_v6) = W (Proc.devRef .tc main_v6) := by
  simp only [sN2, ops, List.take_succ_cons, List.take_zero, List.drop_succ_cons, List.drop_zero]
  after_results_simp
theorem sN2_v50 (W : Valuation τ sig (Elt F)) :
    after (sN2 (F := F)) W (Proc.devRef .tc main_v50) = W (Proc.devRef .tc main_v50) := by
  simp only [sN2, ops, List.take_succ_cons, List.take_zero, List.drop_succ_cons, List.drop_zero]
  after_results_simp
theorem sN2_arg5 (W : Valuation τ sig (Elt F)) :
    after (sN2 (F := F)) W (Proc.devRef .tc main_arg5) = W (Proc.devRef .tc main_arg5) := by
  simp only [sN2, ops, List.take_succ_cons, List.take_zero, List.drop_succ_cons, List.drop_zero]
  after_results_simp

theorem sM2_v88 (W : Valuation τ sig (Elt F)) :
    after (sM2 (F := F)) W (Proc.devRef .tc main_v88) = Spec.agg16 (F := F) (W (Proc.devRef .tc main_v50)) (W (Proc.devRef .tc main_v3)) (W (Proc.devRef .tc main_v6)) (W (Proc.devRef .tc main_v75)) := by
  simp only [sM2, ops, List.take_succ_cons, List.take_zero, List.drop_succ_cons, List.drop_zero]
  after_results_simp
  rfl
theorem sM2_arg5 (W : Valuation τ sig (Elt F)) :
    after (sM2 (F := F)) W (Proc.devRef .tc main_arg5) = W (Proc.devRef .tc main_arg5) := by
  simp only [sM2, ops, List.take_succ_cons, List.take_zero, List.drop_succ_cons, List.drop_zero]
  after_results_simp

theorem sL_v92 (W : Valuation τ sig (Elt F)) :
    after (sL (F := F)) W (Proc.devRef .tc main_v92) = Spec.logsm (F := F) (W (Proc.devRef .tc main_v88)) (W (Proc.devRef .tc main_arg5)) := by
  simp only [sL, ops, List.take_succ_cons, List.take_zero, List.drop_succ_cons, List.drop_zero]
  after_results_simp
  simp only [ofBuf_toBuf]
  rfl

/-! ## The whole line -/

/-- The result buffer after the whole line, from the launch memory. -/
theorem value (m : (ℓ : Loc nD τ sig) → Buf (Elt F) ℓ) (c : Dev nD) :
    after (ops (F := F)) (launchContents m c) (Proc.devRef .tc main_v92)
      = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_stages]
  simp only [after_append]
  rw [sL_v92]
  rw [sM2_v88, sM2_arg5]
  rw [sN2_v75, sN2_v50, sN2_v3, sN2_v6, sN2_arg5]
  rw [sD2_v50, sD2_v3, sD2_v6, sD2_arg5]
  rw [sM1_v45, sM1_v3, sM1_v6, sM1_arg3, sM1_arg4, sM1_arg5]
  rw [sN1_v32, sN1_v7, sN1_v3, sN1_v6, sN1_arg3, sN1_arg4, sN1_arg5]
  rw [sA_v3, sA_v6, sA_v7, sA_arg3, sA_arg4, sA_arg5]
  rfl

theorem kept_arg0 (W : Valuation τ sig (Elt F)) : after (ops (F := F)) W (Proc.devRef .tc main_arg0) = W (Proc.devRef .tc main_arg0) := by
  after_results_simp
theorem kept_arg1 (W : Valuation τ sig (Elt F)) : after (ops (F := F)) W (Proc.devRef .tc main_arg1) = W (Proc.devRef .tc main_arg1) := by
  after_results_simp
theorem kept_arg2 (W : Valuation τ sig (Elt F)) : after (ops (F := F)) W (Proc.devRef .tc main_arg2) = W (Proc.devRef .tc main_arg2) := by
  after_results_simp
theorem kept_arg3 (W : Valuation τ sig (Elt F)) : after (ops (F := F)) W (Proc.devRef .tc main_arg3) = W (Proc.devRef .tc main_arg3) := by
  after_results_simp
theorem kept_arg4 (W : Valuation τ sig (Elt F)) : after (ops (F := F)) W (Proc.devRef .tc main_arg4) = W (Proc.devRef .tc main_arg4) := by
  after_results_simp
theorem kept_arg5 (W : Valuation τ sig (Elt F)) : after (ops (F := F)) W (Proc.devRef .tc main_arg5) = W (Proc.devRef .tc main_arg5) := by
  after_results_simp

/-- Every weakly fair execution of the reference terminates without a fault, the result buffer at the specification's function
    of the argument arrays and the argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
        = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (value m c),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _)⟩)
    (run_seq scopedRefs_eq scopedSems_eq defs main (fun _ => ops) main_eq (fun _ => ops_sub) m ρ)

end Cert.ReferenceIdeal.RefValue

end
-- ==== Proof.lean ====
/-
  The proof of `Cert.Claim`: a two-layer graph convolution network with a log-softmax head — three blocked kernels (a matrix
  product; bias, clamp at zero and a matrix product; bias and a row-wise log-softmax) among host operations that gather rows
  along the edges, scale them and add them up per node — against the same network written with whole-array operations.

  On the extended reals both programs compute ONE function of the six argument arrays, `Spec.out` (Proof/Spec.lean).
  The kernel side: its run ends with the result buffer at the last segment boundary's contents (Proof/KRun.lean), and walking
  the boundaries back to the launch memory gives `Spec.out` (Proof/KValue.lean), from what each host stretch computes
  (Proof/KHost.lean) and each region's closed form — the blocks a region writes back are the row blocks of one whole-array
  function: a matrix product read as a sum over the contracted index, whatever the tiling (Proof/Reg0.lean, Proof/Reg1.lean), and
  the log-softmax row by row, its maximum and its sum the same fold on both sides (Proof/Reg2.lean). The reference side: its
  straight line of operations read in seven stages (Proof/RefValue.lean). No law used needs finiteness — sums and maxima are
  only regrouped, never distributed over —, so the precondition is not opened. The idealization rewrote nothing, so
  `preserves` is trivial; the word-level kernel and the idealized kernel have their frames from the generated frame modules, and the
  reference's frame is its run with the result dropped.
-/
import proofs.«135182_j56891136803140_1_alg».proof.Defs
import proofs.«135182_j56891136803140_1_alg».proof.Proof.Gen.Kernel
import proofs.«135182_j56891136803140_1_alg».proof.Proof.Gen.Kernel.Skeleton
import proofs.«135182_j56891136803140_1_alg».proof.Proof.Gen.Kernel.Launch
import proofs.«135182_j56891136803140_1_alg».proof.Proof.Gen.Kernel.Points
import proofs.«135182_j56891136803140_1_alg».proof.Proof.Gen.Kernel.Frame
import proofs.«135182_j56891136803140_1_alg».proof.Proof.Gen.KernelIdeal
import proofs.«135182_j56891136803140_1_alg».proof.Proof.Gen.KernelIdeal.Skeleton
import proofs.«135182_j56891136803140_1_alg».proof.Proof.Gen.KernelIdeal.Launch
import proofs.«135182_j56891136803140_1_alg».proof.Proof.Gen.KernelIdeal.Points
import proofs.«135182_j56891136803140_1_alg».proof.Proof.Gen.KernelIdeal.Frame
import proofs.«135182_j56891136803140_1_alg».proof.Proof.Gen.ReferenceIdeal
import proofs.«135182_j56891136803140_1_alg».proof.Proof.Gen.Pre_finite_inputs
import proofs.«135182_j56891136803140_1_alg».proof.Proof.Spec
import proofs.«135182_j56891136803140_1_alg».proof.Proof.KRun
import proofs.«135182_j56891136803140_1_alg».proof.Proof.KValue
import proofs.«135182_j56891136803140_1_alg».proof.Proof.Reg0
import proofs.«135182_j56891136803140_1_alg».proof.Proof.Reg1
import proofs.«135182_j56891136803140_1_alg».proof.Proof.Reg2
import proofs.«135182_j56891136803140_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- The idealized kernel's run: the result buffer ends at `Spec.out` of the argument arrays, which end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v60)
        = Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.KValue.value m ρ c Cert.KernelIdeal.Reg0.final Cert.KernelIdeal.Reg1.final Cert.KernelIdeal.Reg2.final), (h c).2⟩)
    (Cert.KernelIdeal.KRun.run_out (F := Ideal) m ρ)

/-- From memories agreeing on the arguments both programs end with the result at `Spec.out` of the same arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
